-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x4096 : Shape := ⟨2, ![4, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x4096 : S_.BroadcastsInDim S4x4096 (![] : Fin 0 → Fin S4x4096.rank)
  reducesTo_S4x4096_S_d0_1 : S4x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4x4096 .f32) (main_arg2 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096 .f32 := Host.absf main_arg1
  let main_cst_0 : FVec F S_ .f32 := constant S_ .f32 0x7F800000#32
  let main_v5 : FVec F S4x4096 .f32 := broadcastInDim S4x4096 ![] bcast_S_S4x4096 main_cst_0
  let main_v6 : IVec S4x4096 1 := cmpf .olt main_v4 main_v5
  let main_c_1 : IVec S_ 1 := constantI S_ 1 1#1
  let main_v7 : IVec S_ 1 := (fun x v => Host.reduce IntOp.andi x v reducesTo_S4x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x4096x4096 : Shape := ⟨3, ![4, 4096, 4096]⟩
abbrev S4x4096 : Shape := ⟨2, ![4, 4096]⟩
abbrev S4096 : Shape := ⟨1, ![4096]⟩
abbrev S1x4096 : Shape := ⟨2, ![1, 4096]⟩
abbrev S1x256x4096 : Shape := ⟨3, ![1, 256, 4096]⟩
abbrev S264x4096 : Shape := ⟨2, ![264, 4096]⟩
abbrev S8x4096 : Shape := ⟨2, ![8, 4096]⟩
abbrev S256x4096 : Shape := ⟨2, ![256, 4096]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S4096, .f32⟩
  | .hbm, ⟨3, _⟩ => ⟨S1x4096, .f32⟩
  | .hbm, ⟨4, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S4x4096, .f32⟩
  | .local _ .vmem, ⟨3, _⟩ => ⟨S1x4096, .f32⟩
  | .local _ .vmem, ⟨4, _⟩ => ⟨S1x256x4096, .f32⟩
  | .local _ .vmem, ⟨5, _⟩ => ⟨S1x256x4096, .f32⟩
  | .local _ .vmem, ⟨6, _⟩ => ⟨S264x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S264x4096_S8x4096_0_0 : ∀ a, (![0, 0] : Fin 2 → Nat) a + S8x4096.size a ≤ S264x4096.size a
  h_S8x4096 : 0 < S8x4096.numel
  shapeCasts_S8x4096_S8x4096 : S8x4096.ShapeCasts S8x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S264x4096_S256x4096_8_0 : ∀ a, (![8, 0] : Fin 2 → Nat) a + S256x4096.size a ≤ S264x4096.size a
  h_S256x4096 : 0 < S256x4096.numel
  shapeCasts_S256x4096_S256x4096 : S256x4096.ShapeCasts S256x4096
  inb_S4x4096_S4x4096_0_0 : ∀ a, (![0, 0] : Fin 2 → Nat) a + S4x4096.size a ≤ S4x4096.size a
  h_S4x4096 : 0 < S4x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S4x4096_o3_0_S1x4096 : S4x4096.Slices ![3, 0] S1x4096
  shapeCasts_S1x4096_S4096 : S1x4096.ShapeCasts S4096
  broadcasts_S1x4096_S256x4096 : S1x4096.Broadcasts S256x4096
  inb_S264x4096_S256x4096_5_0 : ∀ a, (![5, 0] : Fin 2 → Nat) a + S256x4096.size a ≤ S264x4096.size a
  slices_S4x4096_o0_0_S1x4096 : S4x4096.Slices ![0, 0] S1x4096
  inb_S264x4096_S256x4096_6_0 : ∀ a, (![6, 0] : Fin 2 → Nat) a + S256x4096.size a ≤ S264x4096.size a
  slices_S4x4096_o1_0_S1x4096 : S4x4096.Slices ![1, 0] S1x4096
  inb_S264x4096_S256x4096_7_0 : ∀ a, (![7, 0] : Fin 2 → Nat) a + S256x4096.size a ≤ S264x4096.size a
  slices_S4x4096_o2_0_S1x4096 : S4x4096.Slices ![2, 0] S1x4096
  shapeCasts_S256x4096_S1x256x4096 : S256x4096.ShapeCasts S1x256x4096
  inb_S264x4096_S8x4096_256_0 : ∀ a, (![256, 0] : Fin 2 → Nat) a + S8x4096.size a ≤ S264x4096.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .f32 = 32 ∨ (Rect.block (s := S4x4096x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096.size a ≤ S4x4096.size a
  hwx0_1 : ∀ i : grid0.Coords, EltTy.bits .f32 = 32 ∨ (Rect.block (s := S4x4096) S4x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S4x4096x4096.size a
  hwx0_3 : ∀ i : grid0.Coords, EltTy.bits .f32 = 32 ∨ (Rect.block (s := S4x4096x4096) S1x256x4096.size (cc0_transform_3 i) (hinb0_3 i)).WholeWords (EltTy.packing .f32)

variable [Facts₀]

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4x4096 : Shape := ⟨2, ![4, 4096]⟩
abbrev S4096 : Shape := ⟨1, ![4096]⟩
abbrev S_ : Shape := ⟨0, ![]⟩
abbrev S4x4099x4096 : Shape := ⟨3, ![4, 4099, 4096]⟩
abbrev S1x1x4096 : Shape := ⟨3, ![1, 1, 4096]⟩
abbrev S4x4096x1 : Shape := ⟨3, ![4, 4096, 1]⟩
abbrev S1x4096 : Shape := ⟨2, ![1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S4096, .f32⟩
  | .hbm, ⟨3, _⟩ => ⟨S_, .i32⟩
  | .hbm, ⟨4, _⟩ => ⟨S_, .f32⟩
  | .hbm, ⟨5, _⟩ => ⟨S4x4099x4096, .f32⟩
  | .hbm, ⟨6, _⟩ => ⟨S1x1x4096, .f32⟩
  | .hbm, ⟨7, _⟩ => ⟨S_, .f32⟩
  | .hbm, ⟨8, _⟩ => ⟨S4x4096x1, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S1x4096, .f32⟩
  | .hbm, ⟨16, _⟩ => ⟨S4096, .f32⟩
  | .hbm, ⟨17, _⟩ => ⟨S1x1x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S1x4096, .f32⟩
  | .hbm, ⟨23, _⟩ => ⟨S4096, .f32⟩
  | .hbm, ⟨24, _⟩ => ⟨S1x1x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S1x4096, .f32⟩
  | .hbm, ⟨30, _⟩ => ⟨S4096, .f32⟩
  | .hbm, ⟨31, _⟩ => ⟨S1x1x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S1x4096, .f32⟩
  | .hbm, ⟨37, _⟩ => ⟨S4096, .f32⟩
  | .hbm, ⟨38, _⟩ => ⟨S1x1x4096, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S1x1x4096, .f32⟩
  | .hbm, ⟨43, _⟩ => ⟨S4x4096x4096, .f32⟩
  | .hbm, ⟨44, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]

class Facts₀ : Prop where
  pads_S4x4096x4096_S4x4099x4096_000_300_000 : S4x4096x4096.Pads (![0, 3, 0] : Fin 3 → Nat) ![0, 0, 0] ![0, 0, 0] S4x4099x4096
  h_S_ : 0 < S_.numel
  bcast_S4096_S1x1x4096_2 : S4096.BroadcastsInDim S1x1x4096 (![2] : Fin 1 → Fin S1x1x4096.rank)
  bcast_S_S4x4096x1 : S_.BroadcastsInDim S4x4096x1 (![] : Fin 0 → Fin S4x4096x1.rank)
  bcast_S1x1x4096_S4x4096x4096_0_1_2 : S1x1x4096.BroadcastsInDim S4x4096x4096 (![0, 1, 2] : Fin 3 → Fin S4x4096x4096.rank)
  bcast_S4x4096x1_S4x4096x4096_0_1_2 : S4x4096x1.BroadcastsInDim S4x4096x4096 (![0, 1, 2] : Fin 3 → Fin S4x4096x4096.rank)
  bcast_S_S4x4096x4096 : S_.BroadcastsInDim S4x4096x4096 (![] : Fin 0 → Fin S4x4096x4096.rank)
  slices_S4x4099x4096_S4x4096x4096_0_0_0 : S4x4099x4096.Slices ![0, 0, 0] S4x4096x4096
  slices_S4x4096_S1x4096_0_0 : S4x4096.Slices ![0, 0] S1x4096
  shapeCasts_S1x4096_S4096 : S1x4096.ShapeCasts S4096
  slices_S4x4099x4096_S4x4096x4096_0_1_0 : S4x4099x4096.Slices ![0, 1, 0] S4x4096x4096
  slices_S4x4096_S1x4096_1_0 : S4x4096.Slices ![1, 0] S1x4096
  slices_S4x4099x4096_S4x4096x4096_0_2_0 : S4x4099x4096.Slices ![0, 2, 0] S4x4096x4096
  slices_S4x4096_S1x4096_2_0 : S4x4096.Slices ![2, 0] S1x4096
  slices_S4x4099x4096_S4x4096x4096_0_3_0 : S4x4099x4096.Slices ![0, 3, 0] S4x4096x4096
  slices_S4x4096_S1x4096_3_0 : S4x4096.Slices ![3, 0] S1x4096

variable [Facts₀]

class Facts : Prop extends Facts₀ where

variable [Facts]
-- ==== Proof.Rows.lean ====
/-
  A buffer of 264 rows (8 rows of history, then the 256 rows of one time tile) read back after stores into it.

  The tile's rows are stored at rows 8..263. A row `ρ` of the buffer read afterwards is row `ρ - 8` of the tile when
  `8 ≤ ρ`, and otherwise whatever the first eight rows held: the buffer's earlier contents, or the rows a second,
  earlier store put there. These are the only facts about the buffer that the value of the convolution uses.
-/
import Idealize.ShloMosaic.Lib.Pipeline.Value
import Idealize.ShloMosaic.Lib.ValueIdx

noncomputable section

namespace Cert.ConvRows

open Idealize.ShloMosaic Idealize.ShloMosaic.ValueIdx

variable {Val : EltTy → Type} {e : EltTy}

/-- The buffer: 8 history rows, then one tile's 256 rows. -/
abbrev SS : Shape := ⟨2, ![264, 4096]⟩
/-- One tile's rows. -/
abbrev SR : Shape := ⟨2, ![256, 4096]⟩
/-- The history rows. -/
abbrev SH : Shape := ⟨2, ![8, 4096]⟩

/-- Row `ρ ≥ 8` of the buffer is row `ρ - 8` of the rectangle of 256 rows at row 8. -/
theorem tile_emb (inb : ∀ a, (![8, 0] : Fin 2 → Nat) a + (![256, 4096] : Fin 2 → Nat) a ≤ SS.size a)
    (ρ : Fin 264) (d : Fin 4096) (h : 8 ≤ ρ.val) :
    (Rect.unit (s := SS) ![8, 0] ![256, 4096] inb).emb (ix2 (⟨ρ.val - 8, by omega⟩ : Fin 256) d) = (ix2 ρ d : SS.Idx) := by
  funext a
  apply Fin.ext
  match a with
  | ⟨0, _⟩ => show 8 + 1 * (ρ.val - 8) = ρ.val; omega
  | ⟨1, _⟩ => show 0 + 1 * d.val = d.val; omega

/-- Row `ρ < 8` of the buffer is not in the rectangle of 256 rows at row 8. -/
theorem not_mem_tile (inb : ∀ a, (![8, 0] : Fin 2 → Nat) a + (![256, 4096] : Fin 2 → Nat) a ≤ SS.size a)
    (ρ : Fin 264) (d : Fin 4096) (h : ¬ 8 ≤ ρ.val) :
    (ix2 ρ d : SS.Idx) ∉ (Rect.unit (s := SS) ![8, 0] ![256, 4096] inb).set := by
  rw [Rect.mem_set_unit]
  intro hh
  exact h (hh 0).1

/-- Row `ρ < 8` of the buffer is row `ρ` of the rectangle of 8 rows at row 0. -/
theorem hist_emb (inb : ∀ a, (![0, 0] : Fin 2 → Nat) a + (![8, 4096] : Fin 2 → Nat) a ≤ SS.size a)
    (ρ : Fin 264) (d : Fin 4096) (h : ρ.val < 8) :
    (Rect.unit (s := SS) ![0, 0] ![8, 4096] inb).emb (ix2 (⟨ρ.val, h⟩ : Fin 8) d) = (ix2 ρ d : SS.Idx) := by
  funext a
  apply Fin.ext
  match a with
  | ⟨0, _⟩ => show 0 + 1 * ρ.val = ρ.val; omega
  | ⟨1, _⟩ => show 0 + 1 * d.val = d.val; omega

/-- The load of 256 rows starting at row `o` reads row `o + r` of the buffer at its row `r`. -/
theorem load_idx (o : Nat) (inb : ∀ a, (![o, 0] : Fin 2 → Nat) a + (![256, 4096] : Fin 2 → Nat) a ≤ SS.size a)
    (r : Fin 256) (d : Fin 4096) (h : o + r.val < 264) :
    (Rect.unit (s := SS) ![o, 0] ![256, 4096] inb).toLoadRect.idx (ix2 r d) = (ix2 (⟨o + r.val, h⟩ : Fin 264) d : SS.Idx) := by
  funext a
  apply Fin.ext
  match a with
  | ⟨0, _⟩ => show o + 1 * r.val = o + r.val; omega
  | ⟨1, _⟩ => show 0 + 1 * d.val = d.val; omega

/-- The load of the last 8 rows reads row `256 + r` of the buffer at its row `r`. -/
theorem load_last_idx (inb : ∀ a, (![256, 0] : Fin 2 → Nat) a + (![8, 4096] : Fin 2 → Nat) a ≤ SS.size a)
    (r : Fin 8) (d : Fin 4096) :
    (Rect.unit (s := SS) ![256, 0] ![8, 4096] inb).toLoadRect.idx (ix2 r d) = (ix2 (⟨256 + r.val, by omega⟩ : Fin 264) d : SS.Idx) := by
  funext a
  apply Fin.ext
  match a with
  | ⟨0, _⟩ => show 256 + 1 * r.val = 256 + r.val; omega
  | ⟨1, _⟩ => show 0 + 1 * d.val = d.val; omega

section Known
variable {sig : RefSig} {κ : Kind} {sp : Space} (v : View sig κ sp SS e) (f : v.ty.Contents Val)

/-- AFTER THE TILE'S STORE OVER KNOWN CONTENTS: row `ρ` is the tile's row `ρ - 8`, or the old row `ρ` when `ρ < 8`. -/
theorem read_tile_over (V : SR.Idx → Val e)
    (inb : ∀ a, (![8, 0] : Fin 2 → Nat) a + (![256, 4096] : Fin 2 → Nat) a ≤ SS.size a) (ρ : Fin 264) (d : Fin 4096) :
    v.read Val (v.writes Val f [⟨Rect.unit (s := SS) ![8, 0] ![256, 4096] inb, V⟩]) (ix2 ρ d)
      = if h : 8 ≤ ρ.val then V (ix2 (⟨ρ.val - 8, by omega⟩ : Fin 256) d) else v.read Val f (ix2 ρ d) := by
  by_cases h : 8 ≤ ρ.val
  · rw [dif_pos h]
    have e := View.read_writes_cons_emb (Val := Val) v f (Rect.unit (s := SS) ![8, 0] ![256, 4096] inb) V []
      (ix2 (⟨ρ.val - 8, by omega⟩ : Fin 256) d)
    rw [tile_emb inb ρ d h] at e
    exact e
  · rw [dif_neg h, View.writes_cons, View.read_slice_write_of_not_mem _ _ _ _
      (by rw [Rect.map_emb_univ]; exact not_mem_tile inb ρ d h), View.writes_nil]

/-- A LOAD OF 256 ROWS FROM ROW `o ≤ 8` after the tile's store over contents that read `X`: its row `r` is the tile's row
    `o + r - 8`, or the old row `o + r` of the history when `o + r < 8`. -/
theorem load_after_tile_over (X : SS.Idx → Val e) (hf : v.read Val f = X) (V : SR.Idx → Val e) (o : Nat) (ho : o ≤ 8)
    (inbo : ∀ a, (![o, 0] : Fin 2 → Nat) a + (![256, 4096] : Fin 2 → Nat) a ≤ SS.size a)
    (inb : ∀ a, (![8, 0] : Fin 2 → Nat) a + (![256, 4096] : Fin 2 → Nat) a ≤ SS.size a) (r : Fin 256) (d : Fin 4096) :
    v.readAt Val (Rect.unit (s := SS) ![o, 0] ![256, 4096] inbo).toLoadRect
        (v.writes Val f [⟨Rect.unit (s := SS) ![8, 0] ![256, 4096] inb, V⟩]) (ix2 r d)
      = if h : 8 ≤ o + r.val then V (ix2 (⟨o + r.val - 8, by omega⟩ : Fin 256) d)
        else X (ix2 (⟨o + r.val, by omega⟩ : Fin 264) d) := by
  rw [View.readAt_apply, load_idx o inbo r d (by omega), read_tile_over v f V inb ⟨o + r.val, by omega⟩ d, hf]

end Known

section Covered
variable [∀ e, Nonempty (Val e)]

/-- The tile's store alone, at a row from 8 on: the tile's row. -/
theorem canon_tile (V : SR.Idx → Val e)
    (inb : ∀ a, (![8, 0] : Fin 2 → Nat) a + (![256, 4096] : Fin 2 → Nat) a ≤ SS.size a) (L : List (View.Piece Val SS e))
    (ρ : Fin 264) (d : Fin 4096) (h : 8 ≤ ρ.val) :
    View.canon ((⟨Rect.unit (s := SS) ![8, 0] ![256, 4096] inb, V⟩ : View.Piece Val SS e) :: L) (ix2 ρ d)
      = V (ix2 (⟨ρ.val - 8, by omega⟩ : Fin 256) d) := by
  have e := View.canon_cons_emb (Val := Val) (Rect.unit (s := SS) ![8, 0] ![256, 4096] inb) V L
    (ix2 (⟨ρ.val - 8, by omega⟩ : Fin 256) d)
  rw [tile_emb inb ρ d h] at e
  exact e

/-- AFTER A STORE OF THE 8 HISTORY ROWS AND THEN THE TILE'S STORE: row `ρ` is the tile's row `ρ - 8`, or the stored
    history row `ρ` when `ρ < 8`. -/
theorem canon_tile_hist (V : SR.Idx → Val e) (Z : SH.Idx → Val e)
    (inb : ∀ a, (![8, 0] : Fin 2 → Nat) a + (![256, 4096] : Fin 2 → Nat) a ≤ SS.size a)
    (inb0 : ∀ a, (![0, 0] : Fin 2 → Nat) a + (![8, 4096] : Fin 2 → Nat) a ≤ SS.size a) (ρ : Fin 264) (d : Fin 4096) :
    View.canon [(⟨Rect.unit (s := SS) ![8, 0] ![256, 4096] inb, V⟩ : View.Piece Val SS e),
        ⟨Rect.unit (s := SS) ![0, 0] ![8, 4096] inb0, Z⟩] (ix2 ρ d)
      = if h : 8 ≤ ρ.val then V (ix2 (⟨ρ.val - 8, by omega⟩ : Fin 256) d) else Z (ix2 (⟨ρ.val, by omega⟩ : Fin 8) d) := by
  by_cases h : 8 ≤ ρ.val
  · rw [dif_pos h]; exact canon_tile V inb _ ρ d h
  · rw [dif_neg h]
    have e0 := View.canon_cons_of_not_mem (Val := Val)
      (⟨Rect.unit (s := SS) ![8, 0] ![256, 4096] inb, V⟩ : View.Piece Val SS e)
      [(⟨Rect.unit (s := SS) ![0, 0] ![8, 4096] inb0, Z⟩ : View.Piece Val SS e)] (not_mem_tile inb ρ d h)
    have e1 := View.canon_cons_emb (Val := Val) (Rect.unit (s := SS) ![0, 0] ![8, 4096] inb0) Z []
      (ix2 (⟨ρ.val, by omega⟩ : Fin 8) d)
    rw [hist_emb inb0 ρ d (by omega)] at e1
    exact e0.trans e1

/-- A store of the 8 history rows made LAST: a row below 8 is the stored row. -/
theorem canon_hist_last (W : SH.Idx → Val e)
    (inb0 : ∀ a, (![0, 0] : Fin 2 → Nat) a + (![8, 4096] : Fin 2 → Nat) a ≤ SS.size a) (L : List (View.Piece Val SS e))
    (ρ : Fin 264) (d : Fin 4096) (h : ρ.val < 8) :
    View.canon ((⟨Rect.unit (s := SS) ![0, 0] ![8, 4096] inb0, W⟩ : View.Piece Val SS e) :: L) (ix2 ρ d)
      = W (ix2 (⟨ρ.val, h⟩ : Fin 8) d) := by
  have e := View.canon_cons_emb (Val := Val) (Rect.unit (s := SS) ![0, 0] ![8, 4096] inb0) W L
    (ix2 (⟨ρ.val, h⟩ : Fin 8) d)
  rw [hist_emb inb0 ρ d h] at e
  exact e

variable {sig : RefSig} {κ : Kind} {sp : Space} (v : View sig κ sp SS e)

/-- A LOAD OF 256 ROWS FROM ROW `o ≤ 8` after a store of the history rows and then the tile's store, whatever the buffer
    held: its row `r` is the tile's row `o + r - 8`, or the stored history row `o + r` when `o + r < 8`. -/
theorem load_after_tile_hist (V : SR.Idx → Val e) (Z : SH.Idx → Val e) (o : Nat) (ho : o ≤ 8)
    (inbo : ∀ a, (![o, 0] : Fin 2 → Nat) a + (![256, 4096] : Fin 2 → Nat) a ≤ SS.size a)
    (inb : ∀ a, (![8, 0] : Fin 2 → Nat) a + (![256, 4096] : Fin 2 → Nat) a ≤ SS.size a)
    (inb0 : ∀ a, (![0, 0] : Fin 2 → Nat) a + (![8, 4096] : Fin 2 → Nat) a ≤ SS.size a) (r : Fin 256) (d : Fin 4096) :
    v.readCov [(⟨Rect.unit (s := SS) ![8, 0] ![256, 4096] inb, V⟩ : View.Piece Val SS e),
        ⟨Rect.unit (s := SS) ![0, 0] ![8, 4096] inb0, Z⟩]
        (Rect.unit (s := SS) ![o, 0] ![256, 4096] inbo).toLoadRect (ix2 r d)
      = if h : 8 ≤ o + r.val then V (ix2 (⟨o + r.val - 8, by omega⟩ : Fin 256) d)
        else Z (ix2 (⟨o + r.val, by omega⟩ : Fin 8) d) := by
  rw [View.readCov_eq_canon']
  show View.canon _ ((Rect.unit (s := SS) ![o, 0] ![256, 4096] inbo).toLoadRect.idx (ix2 r d)) = _
  rw [load_idx o inbo r d (by omega), canon_tile_hist V Z inb inb0 ⟨o + r.val, by omega⟩ d]

/-- THE LOAD OF THE LAST 8 ROWS after the tile's store (made after any other stores): its row `r` is the tile's row
    `248 + r`, one of the tile's last eight. -/
theorem last_rows_after_tile (V : SR.Idx → Val e) (L : List (View.Piece Val SS e))
    (inb256 : ∀ a, (![256, 0] : Fin 2 → Nat) a + (![8, 4096] : Fin 2 → Nat) a ≤ SS.size a)
    (inb : ∀ a, (![8, 0] : Fin 2 → Nat) a + (![256, 4096] : Fin 2 → Nat) a ≤ SS.size a) (r : Fin 8) (d : Fin 4096) :
    v.readCov ((⟨Rect.unit (s := SS) ![8, 0] ![256, 4096] inb, V⟩ : View.Piece Val SS e) :: L)
        (Rect.unit (s := SS) ![256, 0] ![8, 4096] inb256).toLoadRect (ix2 r d)
      = V (ix2 (⟨248 + r.val, by omega⟩ : Fin 256) d) := by
  rw [View.readCov_eq_canon']
  show View.canon _ ((Rect.unit (s := SS) ![256, 0] ![8, 4096] inb256).toLoadRect.idx (ix2 r d)) = _
  rw [load_last_idx inb256 r d, canon_tile V inb L ⟨256 + r.val, by omega⟩ d (by show 8 ≤ 256 + r.val; omega)]
  exact congrArg (fun k : Fin 256 => V (ix2 k d)) (Fin.ext (by show 256 + r.val - 8 = 248 + r.val; omega))

end Covered

end Cert.ConvRows

end
-- ==== Proof.BodyValue.lean ====
/-
  What one run of the tiled program's body leaves, read at an index.

  The body keeps a buffer of 264 rows: 8 rows of history, then the 256 rows of the current time tile. At the first tile
  of a batch row it stores zeros into the history rows; at every tile it stores the tile's rows at rows 8..263, forms

      tile[r] · w[3] + bias + buf[5 + r] · w[0] + buf[6 + r] · w[1] + buf[7 + r] · w[2]        (r = 0..255)

  for the output block, and copies the buffer's last eight rows (the tile's rows 248..255) into the history rows.
  Row `o + r` of the buffer (o = 5, 6, 7) is the tile's row `o + r - 8` when `8 ≤ o + r` and a history row otherwise
  (`Rows.lean`): so the three shifted loads read the tile 3, 2, 1 rows back, falling into the history at the tile's top.
-/
import proofs.«182084_j71305047048638_2_alg».proof.Proof.Gen.KernelIdeal.Frame
import proofs.«182084_j71305047048638_2_alg».proof.Proof.Rows
import Idealize.ShloMosaic.Lib.Pipeline.Value
import Idealize.ShloMosaic.Lib.ValueLayout
import Idealize.ShloMosaic.Lib.ValueIdx
import Idealize.ShloMosaic.Lib.Tactic

noncomputable section

namespace Cert.KernelIdeal.BodyValue

open Cert.KernelIdeal Cert.KernelIdeal.Gen
open Idealize.ShloMosaic Idealize.ShloMosaic.TcCoe Idealize.ShloMosaic.Tactic Idealize.ShloMosaic.ValueIdx
open Cert.ConvRows

theorem hz2 : (![0, 0] : Fin 2 → Nat) = fun _ => 0 := funext fun a => by fin_cases a <;> rfl
theorem hz3 : (![0, 0, 0] : Fin 3 → Nat) = fun _ => 0 := funext fun a => by fin_cases a <;> rfl

/-! ## The payloads at an index -/

section Payloads
variable {F : FTy → Type} [FloatOps F]

/-- A load of a whole buffer through the rectangle at zero offsets reads its contents. -/
theorem readAt_whole {S : Shape} (a : Memref sig .tc .vmem S .f32) (h : a.IsWhole) (x : Vec F S .f32)
    {off : Fin S.rank → Nat} (hz : off = fun _ => 0) (inb : ∀ a, off a + S.size a ≤ S.size a) :
    View.readAt (Elt F) a.view (Rect.unit off S.size inb).toLoadRect (h.unread x) = x := by
  rw [View.readAt_eq_ld, h.read_unread, View.ld_unit_zero hz]

/-- The tile's rows as the body stores them into the buffer: the input block without its unit batch axis. -/
theorem tile_rows_apply (v3 : Vec F S1x256x4096 .f32) (r : Fin 256) (d : Fin 4096) :
    k0_pay5 v3 (ix2 r d) = v3 (ix3 (0 : Fin 1) r d) := by
  unfold k0_pay5 k0_pay4
  dsimp only
  rw [shapeCast_self]
  exact shapeCast_1ab_ab_apply v3 _ r d

/-- The rows copied into the history are the rows loaded. -/
theorem carried_rows_eq (v42 : Vec F S8x4096 .f32) : k0_pay2 v42 = v42 := by
  unfold k0_pay2
  exact shapeCast_self _ _

/-- The rows the reset stores are zero words. -/
theorem reset_rows_apply (j : S8x4096.Idx) : k0_pay3 (F := F) j = Scalar.ofBits .f32 0x00000000#32 := by
  unfold k0_pay3
  rw [shapeCast_self]
  rfl

/-- The output block is the accumulated rows under a unit batch axis. -/
theorem out_block_apply (v38 : FVec F S256x4096 .f32) (u : Fin 1) (r : Fin 256) (d : Fin 4096) :
    k0_pay1 v38 (ix3 u r d) = v38 (ix2 r d) := by
  unfold k0_pay1
  exact shapeCast_ab_1ab_apply v38 _ u r d

end Payloads

section Layout
variable {α : Type}

/-- Row `k` of the filter, laid along the tile's 256 rows, read at `(r, d)`: the filter's entry `(k, d)`. -/
theorem filter_row (v8 : (⟨2, ![4, 4096]⟩ : Shape).Idx → α) (k : Nat) (kk : Fin 4) (hkk : kk.val = k + 0)
    (hs : (⟨2, ![4, 4096]⟩ : Shape).Slices ![k, 0] ⟨2, ![1, 4096]⟩)
    (h1 : (⟨2, ![1, 4096]⟩ : Shape).ShapeCasts ⟨1, ![4096]⟩) (h2 : (⟨1, ![4096]⟩ : Shape).ShapeCasts ⟨2, ![1, 4096]⟩)
    (hb : (⟨2, ![1, 4096]⟩ : Shape).Broadcasts ⟨2, ![256, 4096]⟩) (r : Fin 256) (d : Fin 4096) :
    broadcastTo ⟨2, ![256, 4096]⟩
        (shapeCast ⟨2, ![1, 4096]⟩ (shapeCast ⟨1, ![4096]⟩ (extractStridedSlice ⟨2, ![1, 4096]⟩ ![k, 0] v8 hs) h1) h2) hb (ix2 r d)
      = v8 (ix2 kk d) :=
  (broadcastTo_1b_ab_apply _ hb r d).trans
    ((shapeCast_a_1a_apply _ h2 (0 : Fin 1) d).trans
      ((shapeCast_1a_a_apply _ h1 d).trans
        (slice2_axis0_apply k v8 hs (0 : Fin 1) d kk hkk)))

/-- The bias row laid along the tile's 256 rows, read at `(r, d)`: the bias at `d`. -/
theorem bias_row (v9 : (⟨2, ![1, 4096]⟩ : Shape).Idx → α)
    (h : (⟨2, ![1, 4096]⟩ : Shape).ShapeCasts ⟨2, ![1, 4096]⟩)
    (hb : (⟨2, ![1, 4096]⟩ : Shape).Broadcasts ⟨2, ![256, 4096]⟩) (r : Fin 256) (d : Fin 4096) :
    broadcastTo ⟨2, ![256, 4096]⟩ (shapeCast ⟨2, ![1, 4096]⟩ v9 h) hb (ix2 r d) = v9 (ix2 (0 : Fin 1) d) :=
  (broadcastTo_1b_ab_apply _ hb r d).trans (congrFun (shapeCast_self v9 h) _)

end Layout

/-- THE ACCUMULATED ROWS AT AN INDEX, over the extended reals: the tile's row times the last tap, plus the bias, plus
    the three shifted loads times taps 0, 1, 2, in that order. -/
theorem acc_apply (v3 : Vec Ideal S1x256x4096 .f32) (v8 : Vec Ideal S4x4096 .f32) (v9 : Vec Ideal S1x4096 .f32)
    (v18 v25 v32 : Vec Ideal S256x4096 .f32) (r : Fin 256) (d : Fin 4096) :
    k0_pay6 v3 v8 v9 v18 v25 v32 (ix2 r d)
      = v3 (ix3 (0 : Fin 1) r d) * v8 (ix2 (3 : Fin 4) d) + v9 (ix2 (0 : Fin 1) d) + v18 (ix2 r d) * v8 (ix2 (0 : Fin 4) d)
        + v25 (ix2 r d) * v8 (ix2 (1 : Fin 4) d) + v32 (ix2 r d) * v8 (ix2 (2 : Fin 4) d) := by
  have ex := shapeCast_1ab_ab_apply v3 shapeCasts_S1x256x4096_S256x4096 r d
  have e3 := filter_row v8 3 (3 : Fin 4) rfl slices_S4x4096_o3_0_S1x4096 shapeCasts_S1x4096_S4096 shapeCasts_S4096_S1x4096
    broadcasts_S1x4096_S256x4096 r d
  have e0 := filter_row v8 0 (0 : Fin 4) rfl slices_S4x4096_o0_0_S1x4096 shapeCasts_S1x4096_S4096 shapeCasts_S4096_S1x4096
    broadcasts_S1x4096_S256x4096 r d
  have e1 := filter_row v8 1 (1 : Fin 4) rfl slices_S4x4096_o1_0_S1x4096 shapeCasts_S1x4096_S4096 shapeCasts_S4096_S1x4096
    broadcasts_S1x4096_S256x4096 r d
  have e2 := filter_row v8 2 (2 : Fin 4) rfl slices_S4x4096_o2_0_S1x4096 shapeCasts_S1x4096_S4096 shapeCasts_S4096_S1x4096
    broadcasts_S1x4096_S256x4096 r d
  have eb := bias_row v9 shapeCasts_S1x4096_S1x4096 broadcasts_S1x4096_S256x4096 r d
  unfold k0_pay6 k0_pay4
  dsimp only
  simp only [addf_apply, mulf_apply]
  rw [ex, e3, e0, e1, e2, eb]

/-! ## What each case leaves -/

/-- What a shifted load reads at row `r`, channel `d`: the tile's row `o + r - 8`, or history row `o + r` at the tile's top. -/
def shifted (x0 : Vec Ideal S1x256x4096 .f32) (H : Fin 8 → Fin 4096 → EReal) (o : Nat) (ho : o ≤ 8) (r : Fin 256)
    (d : Fin 4096) : EReal :=
  if h : 8 ≤ o + r.val then x0 (ix3 (0 : Fin 1) (⟨o + r.val - 8, by omega⟩ : Fin 256) d) else H ⟨o + r.val, by omega⟩ d

/-- One output entry from the tile and the history rows. -/
def entry (x0 : Vec Ideal S1x256x4096 .f32) (x1 : Vec Ideal S4x4096 .f32) (x2 : Vec Ideal S1x4096 .f32)
    (H : Fin 8 → Fin 4096 → EReal) (r : Fin 256) (d : Fin 4096) : EReal :=
  x0 (ix3 (0 : Fin 1) r d) * x1 (ix2 (3 : Fin 4) d) + x2 (ix2 (0 : Fin 1) d)
    + shifted x0 H 5 (by omega) r d * x1 (ix2 (0 : Fin 4) d) + shifted x0 H 6 (by omega) r d * x1 (ix2 (1 : Fin 4) d)
    + shifted x0 H 7 (by omega) r d * x1 (ix2 (2 : Fin 4) d)

/-- A LATER TILE OF A BATCH ROW (no reset): the output block over the history rows the buffer held. -/
theorem out_later (c : Dev nD) (i : grid0.Coords) (a2 : Memref sig .tc .vmem S1x256x4096 .f32) (h2 : a2.IsWhole) (a3 : Memref sig .tc .vmem S4x4096 .f32) (h3 : a3.IsWhole) (a4 : Memref sig .tc .vmem S1x4096 .f32) (h4 : a4.IsWhole) (a5 : Memref sig .tc .vmem S1x256x4096 .f32) (h5 : a5.IsWhole) (a6 : Memref sig .tc .vmem S264x4096 .f32) (h6 : a6.IsWhole) (hc : ¬cond0_0 i)
    (x0 : Vec Ideal S1x256x4096 .f32) (x1 : Vec Ideal S4x4096 .f32) (x2 : Vec Ideal S1x4096 .f32) (xs0 : Vec Ideal S264x4096 .f32)
    (r : Fin 256) (d : Fin 4096) :
    out0_B_3 c i a2 h2 a3 h3 a4 h4 a5 h5 a6 h6 hc x0 x1 x2 xs0 (ix3 (0 : Fin 1) r d)
      = entry x0 x1 x2 (fun ρ δ => xs0 (ix2 (⟨ρ.val, by omega⟩ : Fin 264) δ)) r d := by
  unfold out0_B_3
  rw [View.read_writes_eq_canon _ _ _ (cover0_B_3 c i a2 h2 a3 h3 a4 h4 a5 h5 a6 h6 hc x0 x1 x2 xs0)]
  unfold kernelRun0_B
  dsimp only
  sl_unfold_run_names
  rw [View.canon_unit_zero hz3, readAt_whole a2 h2 x0 hz3, readAt_whole a3 h3 x1 hz2, readAt_whole a4 h4 x2 hz2,
    out_block_apply, acc_apply,
    load_after_tile_over (Val := Elt Ideal) (e := .f32) a6.view (h6.unread xs0) xs0 (h6.read_unread xs0) (k0_pay5 x0) 5 (by omega) _ _ r d,
    load_after_tile_over (Val := Elt Ideal) (e := .f32) a6.view (h6.unread xs0) xs0 (h6.read_unread xs0) (k0_pay5 x0) 6 (by omega) _ _ r d,
    load_after_tile_over (Val := Elt Ideal) (e := .f32) a6.view (h6.unread xs0) xs0 (h6.read_unread xs0) (k0_pay5 x0) 7 (by omega) _ _ r d]
  simp only [tile_rows_apply]
  rfl

/-- THE FIRST TILE OF A BATCH ROW (reset): the output block over zero history rows. -/
theorem out_first (c : Dev nD) (i : grid0.Coords) (a2 : Memref sig .tc .vmem S1x256x4096 .f32) (h2 : a2.IsWhole) (a3 : Memref sig .tc .vmem S4x4096 .f32) (h3 : a3.IsWhole) (a4 : Memref sig .tc .vmem S1x4096 .f32) (h4 : a4.IsWhole) (a5 : Memref sig .tc .vmem S1x256x4096 .f32) (h5 : a5.IsWhole) (a6 : Memref sig .tc .vmem S264x4096 .f32) (h6 : a6.IsWhole) (hc : cond0_0 i)
    (x0 : Vec Ideal S1x256x4096 .f32) (x1 : Vec Ideal S4x4096 .f32) (x2 : Vec Ideal S1x4096 .f32)
    (r : Fin 256) (d : Fin 4096) :
    out0_A_3 c i a2 h2 a3 h3 a4 h4 a5 h5 a6 h6 hc x0 x1 x2 (ix3 (0 : Fin 1) r d)
      = entry x0 x1 x2 (fun _ _ => (Scalar.ofBits .f32 0x00000000#32 : Ideal .f32)) r d := by
  unfold out0_A_3
  rw [View.read_writes_eq_canon _ _ _ (cover0_A_3 c i a2 h2 a3 h3 a4 h4 a5 h5 a6 h6 hc x0 x1 x2)]
  unfold kernelRun0_A
  dsimp only
  sl_unfold_run_names
  rw [View.canon_unit_zero hz3, readAt_whole a2 h2 x0 hz3, readAt_whole a3 h3 x1 hz2, readAt_whole a4 h4 x2 hz2,
    out_block_apply, acc_apply,
    load_after_tile_hist (Val := Elt Ideal) (e := .f32) a6.view (k0_pay5 x0) (k0_pay3 (F := Ideal)) 5 (by omega) _ _ _ r d,
    load_after_tile_hist (Val := Elt Ideal) (e := .f32) a6.view (k0_pay5 x0) (k0_pay3 (F := Ideal)) 6 (by omega) _ _ _ r d,
    load_after_tile_hist (Val := Elt Ideal) (e := .f32) a6.view (k0_pay5 x0) (k0_pay3 (F := Ideal)) 7 (by omega) _ _ _ r d]
  simp only [tile_rows_apply, reset_rows_apply]
  rfl

section History
variable {F : FTy → Type} [FloatOps F]

/-- AFTER A LATER TILE the history rows are the tile's last eight rows. -/
theorem hist_later (c : Dev nD) (i : grid0.Coords) (a2 : Memref sig .tc .vmem S1x256x4096 .f32) (h2 : a2.IsWhole) (a3 : Memref sig .tc .vmem S4x4096 .f32) (h3 : a3.IsWhole) (a4 : Memref sig .tc .vmem S1x4096 .f32) (h4 : a4.IsWhole) (a5 : Memref sig .tc .vmem S1x256x4096 .f32) (h5 : a5.IsWhole) (a6 : Memref sig .tc .vmem S264x4096 .f32) (h6 : a6.IsWhole) (hc : ¬cond0_0 i)
    (x0 : Vec F S1x256x4096 .f32) (x1 : Vec F S4x4096 .f32) (x2 : Vec F S1x4096 .f32) (xs0 : Vec F S264x4096 .f32)
    (ρ : Fin 8) (d : Fin 4096) :
    sout0_B_0 c i a2 h2 a3 h3 a4 h4 a5 h5 a6 h6 hc x0 x1 x2 xs0 (ix2 (⟨ρ.val, by omega⟩ : Fin 264) d)
      = x0 (ix3 (0 : Fin 1) (⟨248 + ρ.val, by omega⟩ : Fin 256) d) := by
  unfold sout0_B_0
  rw [View.read_writes_eq_canon _ _ _ (scover0_B_0 c i a2 h2 a3 h3 a4 h4 a5 h5 a6 h6 hc x0 x1 x2 xs0)]
  unfold kernelRun0_B
  dsimp only
  sl_unfold_run_names
  rw [readAt_whole a2 h2 x0 hz3]
  refine (canon_hist_last _ _ _ (⟨ρ.val, by omega⟩ : Fin 264) d ρ.isLt).trans ?_
  rw [carried_rows_eq]
  refine (last_rows_after_tile a6.view _ _ _ _ ρ d).trans ?_
  exact tile_rows_apply x0 _ d

/-- AFTER THE FIRST TILE the history rows are the tile's last eight rows. -/
theorem hist_first (c : Dev nD) (i : grid0.Coords) (a2 : Memref sig .tc .vmem S1x256x4096 .f32) (h2 : a2.IsWhole) (a3 : Memref sig .tc .vmem S4x4096 .f32) (h3 : a3.IsWhole) (a4 : Memref sig .tc .vmem S1x4096 .f32) (h4 : a4.IsWhole) (a5 : Memref sig .tc .vmem S1x256x4096 .f32) (h5 : a5.IsWhole) (a6 : Memref sig .tc .vmem S264x4096 .f32) (h6 : a6.IsWhole) (hc : cond0_0 i)
    (x0 : Vec F S1x256x4096 .f32) (x1 : Vec F S4x4096 .f32) (x2 : Vec F S1x4096 .f32)
    (ρ : Fin 8) (d : Fin 4096) :
    sout0_A_0 c i a2 h2 a3 h3 a4 h4 a5 h5 a6 h6 hc x0 x1 x2 (ix2 (⟨ρ.val, by omega⟩ : Fin 264) d)
      = x0 (ix3 (0 : Fin 1) (⟨248 + ρ.val, by omega⟩ : Fin 256) d) := by
  unfold sout0_A_0
  rw [View.read_writes_eq_canon _ _ _ (scover0_A_0 c i a2 h2 a3 h3 a4 h4 a5 h5 a6 h6 hc x0 x1 x2)]
  unfold kernelRun0_A
  dsimp only
  sl_unfold_run_names
  rw [readAt_whole a2 h2 x0 hz3]
  refine (canon_hist_last _ _ _ (⟨ρ.val, by omega⟩ : Fin 264) d ρ.isLt).trans ?_
  rw [carried_rows_eq]
  refine (last_rows_after_tile a6.view _ _ _ _ ρ d).trans ?_
  exact tile_rows_apply x0 _ d

end History

end Cert.KernelIdeal.BodyValue

end
-- ==== Proof.Spec.lean ====
/-
  The causal depthwise temporal convolution as one function of the argument arrays, index by index, over the
  extended reals:

      out[b, t, d] = x[b, t, d] · w[3, d] + bias[d] + x[b, t-3, d] · w[0, d] + x[b, t-2, d] · w[1, d] + x[b, t-1, d] · w[2, d]

  with x[b, s, d] read as 0 for s < 0 (the sequence starts at time 0 in every batch row). The sum is written in the
  order in which the tiled program accumulates it; the order in which the plain program accumulates it
  (from a zero, taps 0 to 3, then the bias) is the same extended real, because addition of extended reals is
  commutative and associative and 0 is its unit (`taps_then_bias`). No product is ever moved across a sum, so
  nothing here needs the entries to be finite.
-/
import Idealize.ShloMosaic.PureOps.Ideal
import Idealize.ShloMosaic.Lib.ValueIdx

noncomputable section

namespace Cert.ConvSpec

open Idealize.ShloMosaic Idealize.ShloMosaic.ValueIdx

/-- The input and output arrays: batch × time × channel. -/
abbrev SX : Shape := ⟨3, ![4, 4096, 4096]⟩
/-- The filter: tap × channel. -/
abbrev SW : Shape := ⟨2, ![4, 4096]⟩
/-- The bias: one entry per channel. -/
abbrev SB : Shape := ⟨1, ![4096]⟩

/-- The input `s` steps before time `t` in batch row `b`, channel `d`; zero before the sequence starts. -/
def past (x : SX.Idx → EReal) (b : Fin 4) (t d : Fin 4096) (s : Nat) : EReal :=
  if s ≤ t.val then x (ix3 b ⟨t.val - s, Nat.lt_of_le_of_lt (Nat.sub_le _ _) t.isLt⟩ d) else 0

/-- One output entry: the current input times the last tap, plus the bias, plus the three earlier inputs times
    taps 0, 1, 2. -/
def conv (x : SX.Idx → EReal) (w : SW.Idx → EReal) (bias : SB.Idx → EReal) (b : Fin 4) (t d : Fin 4096) : EReal :=
  x (ix3 b t d) * w (ix2 (3 : Fin 4) d) + bias (ix1 d) + past x b t d 3 * w (ix2 (0 : Fin 4) d)
    + past x b t d 2 * w (ix2 (1 : Fin 4) d) + past x b t d 1 * w (ix2 (2 : Fin 4) d)

/-- The whole output array. -/
def convArr (x : SX.Idx → EReal) (w : SW.Idx → EReal) (bias : SB.Idx → EReal) : SX.Idx → EReal :=
  fun i => conv x w bias (i 0) (i 1) (i 2)

/-- Accumulating from zero, tap 0 to tap 3 and the bias last, gives the same entry. -/
theorem taps_then_bias (x : SX.Idx → EReal) (w : SW.Idx → EReal) (bias : SB.Idx → EReal) (b : Fin 4) (t d : Fin 4096) :
    0 + past x b t d 3 * w (ix2 (0 : Fin 4) d) + past x b t d 2 * w (ix2 (1 : Fin 4) d)
        + past x b t d 1 * w (ix2 (2 : Fin 4) d) + x (ix3 b t d) * w (ix2 (3 : Fin 4) d) + bias (ix1 d)
      = conv x w bias b t d := by
  unfold conv
  rw [zero_add]
  abel

end Cert.ConvSpec

end
-- ==== Proof.KernelValue.lean ====
/-
  The tiled program's result array is the convolution of `Spec.lean`.

  The grid has 4 × 16 points: point `t` works on batch row `t / 16` and on time tile `t % 16`, rows
  `256·(t % 16) .. 256·(t % 16) + 255`. Its input block is those rows of the input, its filter and bias blocks are the
  whole filter and the bias as one row, and it writes its output block back to the same rows of the result.

  The history rows the body finds at a point that is not the first of its batch row are the last eight rows of the
  previous point's tile, whatever that point was (`hist_after`): rows `256·(t % 16) - 8 .. 256·(t % 16) - 1` of the same
  batch row. At the first point of a batch row they are zeros. So a shifted load at row `r` of the tile reads the input
  at time `256·(t % 16) + r - s` (s = 3, 2, 1) — from the tile itself, from the previous tile's tail, or zero before
  time 0 — which is `past` of the specification (`shifted_eq_past`); every block is therefore a block of the one
  function `convArr`, and the 64 blocks cover the result array.
-/
import proofs.«182084_j71305047048638_2_alg».proof.Proof.Gen.KernelIdeal.Value
import proofs.«182084_j71305047048638_2_alg».proof.Proof.BodyValue
import proofs.«182084_j71305047048638_2_alg».proof.Proof.Spec
import Idealize.ShloMosaic.Lib.StableHlo.Run
import Idealize.ShloMosaic.Lib.ValueLayout
import Idealize.ShloMosaic.PureOps.Ideal.Laws

noncomputable section

namespace Cert.KernelIdeal.ConvValue

open Cert.KernelIdeal Cert.KernelIdeal.Gen Cert.KernelIdeal.Value Cert.KernelIdeal.BodyValue
open Idealize.ShloMosaic Idealize.ShloMosaic.TcCoe Idealize.SL.Sem Idealize.ShloMosaic.ValueIdx Idealize.ShloMosaic.StableHlo
open Idealize.ShloMosaic.Pipeline (Dat)
open Cert.ConvSpec

variable (m : (ℓ : Loc nD τ sig) → Buf (Elt Ideal) ℓ) (ρ : Dev nD → PrngReg)

/-- The result: the convolution of the three argument arrays as launched. -/
abbrev result (c : Dev nD) : Buf (Elt Ideal) ((c : Thread nD τ).loc main_v1) :=
  convArr (m ((c : Thread nD τ).loc main_arg0)) (m ((c : Thread nD τ).loc main_arg1)) (m ((c : Thread nD τ).loc main_arg2))

/-! ## Where each point's blocks sit -/

/-- The printed index maps, decided over the 64 points: input and output blocks at (batch row, time tile, 0); the
    filter's and the bias's one block at the origin. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 16 ∧ win0_3.index t (1 : Fin 3) = t.val % 16 ∧ win0_3.index t (2 : Fin 3) = 0 :=
  (by decide +kernel : ∀ t : Fin grid0.N, _)

/-- The input block at point `t`, row `r`: the input at batch row `t / 16`, time `256·(t % 16) + r`. -/
theorem xblk_apply (c : Dev nD) (t : Fin cfg0.N) (r : Fin 256) (d : Fin 4096) (b : Fin 4) (hb : b.val = t.val / 16)
    (tt : Fin 4096) (htt : tt.val = 256 * (t.val % 16) + r.val) :
    (iblk m c 0 t : Vec Ideal S1x256x4096 .f32) (ix3 (0 : Fin 1) r d) = m ((c : Thread nD τ).loc main_arg0) (ix3 b tt d) := by
  obtain ⟨e0, e1, e2, -⟩ := idx_facts t
  refine Eq.trans ?_ (congrFun (V_main_arg0 m c) (ix3 b tt d))
  unfold iblk
  rw [View.read_apply]
  show V m c main_arg0 (((cfg0.win 0).blk t).view.emb (ix3 (0 : Fin 1) r d)) = V m c main_arg0 (ix3 b tt d)
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 256 + 1 * r.val = tt.val; omega
  | ⟨2, _⟩ => show win0_0.index t (2 : Fin 3) * 4096 + 1 * d.val = d.val; omega

/-- The filter block at any point is the filter. -/
theorem wblk_apply (c : Dev nD) (t : Fin cfg0.N) (k : Fin 4) (d : Fin 4096) :
    (iblk m c 1 t : Vec Ideal S4x4096 .f32) (ix2 k d) = m ((c : Thread nD τ).loc main_arg1) (ix2 k d) := by
  obtain ⟨-, -, -, e0, e1, -⟩ := idx_facts t
  refine Eq.trans ?_ (congrFun (V_main_arg1 m c) (ix2 k d))
  unfold iblk
  rw [View.read_apply]
  show V m c main_arg1 (((cfg0.win 1).blk t).view.emb (ix2 k d)) = V m c main_arg1 (ix2 k d)
  refine congrArg (V m c main_arg1) (funext fun a => Fin.ext ?_)
  match a with
  | ⟨0, _⟩ => show win0_1.index t (0 : Fin 2) * 4 + 1 * k.val = k.val; omega
  | ⟨1, _⟩ => show win0_1.index t (1 : Fin 2) * 4096 + 1 * d.val = d.val; omega

/-- The bias as one row, as the region finds it: the host's reshape of the bias. -/
theorem bias_row_eq (c : Dev nD) :
    (V m c main_v0 : S1x4096.Idx → EReal)
      = shapeCast S1x4096 (m ((c : Thread nD τ).loc main_arg2)) shapeCasts_S4096_S1x4096 := by
  dsimp only [Gen.V, Gen.hostOps0]
  after_results
  rfl

/-- The bias block at any point is the bias. -/
theorem bblk_apply (c : Dev nD) (t : Fin cfg0.N) (d : Fin 4096) :
    (iblk m c 2 t : Vec Ideal S1x4096 .f32) (ix2 (0 : Fin 1) d) = m ((c : Thread nD τ).loc main_arg2) (ix1 d) := by
  obtain ⟨-, -, -, -, -, e0, e1, -⟩ := idx_facts t
  have hrow : V m c main_v0 (ix2 (0 : Fin 1) d) = m ((c : Thread nD τ).loc main_arg2) (ix1 d) := by
    rw [bias_row_eq m c]
    exact shapeCast_a_1a_apply _ shapeCasts_S4096_S1x4096 (0 : Fin 1) d
  refine Eq.trans ?_ hrow
  unfold iblk
  rw [View.read_apply]
  show V m c main_v0 (((cfg0.win 2).blk t).view.emb (ix2 (0 : Fin 1) d)) = V m c main_v0 (ix2 (0 : Fin 1) d)
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 4096 + 1 * d.val = d.val; omega

/-! ## The history rows -/

/-- AFTER ANY POINT the history rows are the last eight rows of that point's tile. -/
theorem hist_after (c : Dev nD) (t : Fin cfg0.N) (ρ' : Fin 8) (d : Fin 4096) :
    (outsAt0 m c t.val t.isLt).2 (ix2 (⟨ρ'.val, by omega⟩ : Fin 264) d)
      = (iblk m c 0 t : Vec Ideal S1x256x4096 .f32) (ix3 (0 : Fin 1) (⟨248 + ρ'.val, by omega⟩ : Fin 256) d) := by
  by_cases h0 : t.val % 16 = 0
  · rw [outsAt0_A m c t h0]
    dsimp only
    exact hist_first (F := Ideal) c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t) ρ' d
  · rw [outsAt0_B m c t h0]
    dsimp only
    exact hist_later (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2 ρ' d

/-! ## A shifted load is the input some steps back -/

/-- At a point that is not the first of its batch row: the load from buffer row `o` (o + s = 8, s ≤ 3 steps back) at the
    tile's row `r` is the input `s` steps before time `256·(t % 16) + r`, over the history the previous point left. -/
theorem shifted_later (c : Dev nD) (t : Fin cfg0.N) (h0 : ¬ t.val % 16 = 0) (o s : Nat) (hos : o + s = 8) (hs : s ≤ 8)
    (r : Fin 256) (d : Fin 4096) (b : Fin 4) (hb : b.val = t.val / 16) (tt : Fin 4096)
    (htt : tt.val = 256 * (t.val % 16) + r.val) :
    shifted (iblk m c 0 t) (fun ρ' δ => (outsAt0 m c (t.val - 1) (Nat.lt_of_le_of_lt (Nat.sub_le _ _) t.isLt)).2
        (ix2 (⟨ρ'.val, by omega⟩ : Fin 264) δ)) o (by omega) r d
      = past (m ((c : Thread nD τ).loc main_arg0)) b tt d s := by
  have hN : t.val < 64 := lt_of_lt_of_eq t.isLt (show cfg0.N = 64 from N_0)
  unfold shifted past
  by_cases h : 8 ≤ o + r.val
  · rw [dif_pos h, if_pos (by omega)]
    exact xblk_apply m c t _ d b hb _ (by show tt.val - s = 256 * (t.val % 16) + (o + r.val - 8); omega)
  · rw [dif_neg h, if_pos (by omega)]
    have hp : t.val - 1 < cfg0.N := Nat.lt_of_le_of_lt (Nat.sub_le _ _) t.isLt
    refine (hist_after m c ⟨t.val - 1, hp⟩ ⟨o + r.val, by omega⟩ d).trans ?_
    exact xblk_apply m c ⟨t.val - 1, hp⟩ _ d b (by show b.val = (t.val - 1) / 16; omega) _
      (by show tt.val - s = 256 * ((t.val - 1) % 16) + (248 + (o + r.val)); omega)

/-- At the first point of a batch row: the same load over zero history rows. -/
theorem shifted_first (c : Dev nD) (t : Fin cfg0.N) (h0 : t.val % 16 = 0) (o s : Nat) (hos : o + s = 8) (hs : s ≤ 8)
    (r : Fin 256) (d : Fin 4096) (b : Fin 4) (hb : b.val = t.val / 16) (tt : Fin 4096)
    (htt : tt.val = 256 * (t.val % 16) + r.val) :
    shifted (iblk m c 0 t) (fun _ _ => (Scalar.ofBits .f32 0x00000000#32 : Ideal .f32)) o (by omega) r d
      = past (m ((c : Thread nD τ).loc main_arg0)) b tt d s := by
  unfold shifted past
  by_cases h : 8 ≤ o + r.val
  · rw [dif_pos h, if_pos (by omega)]
    exact xblk_apply m c t _ d b hb _ (by show tt.val - s = 256 * (t.val % 16) + (o + r.val - 8); omega)
  · rw [dif_neg h, if_neg (by omega)]
    exact Ideal.ofBits_zero_f32

/-! ## Every block is a block of the convolution -/

/-- One entry of the body's output at a point is the convolution's entry there. -/
theorem entry_eq (c : Dev nD) (t : Fin cfg0.N) (H : Fin 8 → Fin 4096 → EReal) (r : Fin 256) (d : Fin 4096) (b : Fin 4)
    (hb : b.val = t.val / 16) (tt : Fin 4096) (htt : tt.val = 256 * (t.val % 16) + r.val)
    (h5 : shifted (iblk m c 0 t) H 5 (by omega) r d = past (m ((c : Thread nD τ).loc main_arg0)) b tt d 3)
    (h6 : shifted (iblk m c 0 t) H 6 (by omega) r d = past (m ((c : Thread nD τ).loc main_arg0)) b tt d 2)
    (h7 : shifted (iblk m c 0 t) H 7 (by omega) r d = past (m ((c : Thread nD τ).loc main_arg0)) b tt d 1) :
    entry (iblk m c 0 t) (iblk m c 1 t) (iblk m c 2 t) H r d
      = conv (m ((c : Thread nD τ).loc main_arg0)) (m ((c : Thread nD τ).loc main_arg1)) (m ((c : Thread nD τ).loc main_arg2)) b tt d := by
  unfold entry conv
  rw [h5, h6, h7, xblk_apply m c t r d b hb tt htt, wblk_apply m c t, wblk_apply m c t, wblk_apply m c t, wblk_apply m c t,
    bblk_apply m c t]

/-- WHAT POINT `t` WRITES BACK is block `t` of the convolution. -/
theorem flushed_eq (c : Dev nD) (t : Fin cfg0.N) :
    (dats m 0 c).flushed 3 t = ((cfg0.win 3).blk t).view.read (Elt Ideal) (result m c) := by
  have hN : t.val < 64 := lt_of_lt_of_eq t.isLt (show cfg0.N = 64 from N_0)
  obtain ⟨-, -, -, -, -, -, -, e0, e1, e2⟩ := idx_facts t
  funext j
  obtain ⟨u, r, d, rfl⟩ : ∃ (u : Fin 1) (r : Fin 256) (d : Fin 4096), j = ix3 u r d := ⟨j 0, j 1, j 2, eq_ix3 j⟩
  obtain rfl : u = 0 := Subsingleton.elim _ _
  have hb : t.val / 16 < 4 := by omega
  have htt : 256 * (t.val % 16) + r.val < 4096 := by omega
  -- the block's entry (0, r, d) sits at (t / 16, 256·(t % 16) + r, d) of the result
  have hpos : ((cfg0.win 3).blk t).view.read (Elt Ideal) (result m c) (ix3 (0 : Fin 1) r d)
      = conv (m ((c : Thread nD τ).loc main_arg0)) (m ((c : Thread nD τ).loc main_arg1)) (m ((c : Thread nD τ).loc main_arg2))
          ⟨t.val / 16, hb⟩ ⟨256 * (t.val % 16) + r.val, htt⟩ d := by
    rw [View.read_apply]
    show convArr _ _ _ (((cfg0.win 3).blk t).view.emb (ix3 (0 : Fin 1) r d)) = _
    unfold convArr
    have ei : ((cfg0.win 3).blk t).view.emb (ix3 (0 : Fin 1) r d)
        = (ix3 (⟨t.val / 16, hb⟩ : Fin 4) (⟨256 * (t.val % 16) + r.val, htt⟩ : Fin 4096) d : S4x4096x4096.Idx) := by
      funext a; apply Fin.ext
      match a with
      | ⟨0, _⟩ => show win0_3.index t (0 : Fin 3) * 1 + 1 * 0 = t.val / 16; omega
      | ⟨1, _⟩ => show win0_3.index t (1 : Fin 3) * 256 + 1 * r.val = 256 * (t.val % 16) + r.val; omega
      | ⟨2, _⟩ => show win0_3.index t (2 : Fin 3) * 4096 + 1 * d.val = d.val; omega
    rw [ei]
  rw [hpos]
  by_cases h0 : t.val % 16 = 0
  · rw [flushed3_A m c t h0]
    show out0_A_3 c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t) (ix3 (0 : Fin 1) r d) = _
    rw [out_first c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t) r d]
    exact entry_eq m c t _ r d _ rfl _ rfl
      (shifted_first m c t h0 5 3 rfl (by omega) r d _ rfl _ rfl)
      (shifted_first m c t h0 6 2 rfl (by omega) r d _ rfl _ rfl)
      (shifted_first m c t h0 7 1 rfl (by omega) r d _ rfl _ rfl)
  · rw [flushed3_B m c t h0]
    show out0_B_3 c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2 (ix3 (0 : Fin 1) r d) = _
    rw [out_later c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2 r d]
    exact entry_eq m c t _ r d _ rfl _ rfl
      (shifted_later m c t h0 5 3 rfl (by omega) r d _ rfl _ rfl)
      (shifted_later m c t h0 6 2 rfl (by omega) r d _ rfl _ rfl)
      (shifted_later m c t h0 7 1 rfl (by omega) r d _ rfl _ rfl)

/-! ## The blocks cover the result -/

/-- An index of the result is in point `t`'s block iff each coordinate is in the block's range on its axis. -/
theorem mem_blk (t : Fin cfg0.N) (i : S4x4096x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v1).slice (win0_3.rect t)).set ↔ _
  rw [View.set_slice_whole, Rect.mem_set_unit]
  exact Iff.rfl

/-- Row `(b, tt)` of the result is written by point `16·b + tt / 256`. -/
theorem cover (i : S4x4096x4096.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 4096 := (i 2).isLt
  have hN : cfg0.N = 64 := N_0
  refine ⟨⟨16 * (i 0).val + (i 1).val / 256, by omega⟩, flush0_3 _, ?_⟩
  obtain ⟨-, -, -, -, -, -, -, e0, e1, e2⟩ := idx_facts ⟨16 * (i 0).val + (i 1).val / 256, by omega⟩
  rw [mem_blk]
  intro a
  match a with
  | ⟨0, _⟩ =>
    show win0_3.index _ (0 : Fin 3) * 1 ≤ (i 0).val ∧ (i 0).val < win0_3.index _ (0 : Fin 3) * 1 + 1
    rw [e0]; show (16 * (i 0).val + (i 1).val / 256) / 16 * 1 ≤ (i 0).val ∧ (i 0).val < (16 * (i 0).val + (i 1).val / 256) / 16 * 1 + 1
    omega
  | ⟨1, _⟩ =>
    show win0_3.index _ (1 : Fin 3) * 256 ≤ (i 1).val ∧ (i 1).val < win0_3.index _ (1 : Fin 3) * 256 + 256
    rw [e1]; show (16 * (i 0).val + (i 1).val / 256) % 16 * 256 ≤ (i 1).val ∧ (i 1).val < (16 * (i 0).val + (i 1).val / 256) % 16 * 256 + 256
    omega
  | ⟨2, _⟩ =>
    show win0_3.index _ (2 : Fin 3) * 4096 ≤ (i 2).val ∧ (i 2).val < win0_3.index _ (2 : Fin 3) * 4096 + 4096
    rw [e2]; omega

/-- THE RESULT ARRAY after the run is the convolution. -/
theorem final (c : Dev nD) : (dats m 0 c).arrAt 3 cfg0.N = result m c :=
  (dats m 0 c).arrAt_eq_of_cover 3 (result m c) (fun t _ => flushed_eq m c t) cover

/-- The run, read: the result array at the convolution of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ConvValue

end
-- ==== Proof.RefValue.lean ====
/-
  The plain program computes the convolution of `Spec.lean`.

  It pads the input with three zero rows in front of the time axis, takes the four windows of 4096 rows that start at
  rows 0, 1, 2, 3 of the padded array, multiplies window `k` by filter row `k` laid along every batch row and time, adds the
  four products to a zero array in that order, and adds the bias last. Row `k + t` of the padded array is the input at
  time `t - (3 - k)`, or zero when that time is negative; so window `k` at time `t` is the input `3 - k` steps back.
-/
import proofs.«182084_j71305047048638_2_alg».proof.Proof.Gen.ReferenceIdeal.Read
import proofs.«182084_j71305047048638_2_alg».proof.Proof.Spec
import Idealize.ShloMosaic.Lib.KernelVsHost
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.ConvSpec

/-- The padding value: the integer zero converted, which is the real number zero. -/
theorem pad_value (i : S_.Idx) : val_main_call0_v0 (F := Ideal) i = 0 := by
  rw [val_main_call0_v0_apply, val_main_c_apply]
  exact sitofp_zero (φ := .f32)

/-- THE PADDED INPUT. Row `k + t` (with `k + s = 3`) of the input padded by three zero rows in front is the input `s` steps
    before time `t`: the input's row `t - s` when `s ≤ t`, a padding row otherwise. -/
theorem padded_apply (x0 : (⟨S4x4096x4096, .f32⟩ : BufTy).Contents (Elt Ideal)) (b : Fin 4) (t d : Fin 4096)
    (k s : Nat) (hks : k + s = 3) (j : S4x4099x4096.Idx)
    (hj0 : (j 0).val = b.val) (hj1 : (j 1).val = k + t.val) (hj2 : (j 2).val = d.val) :
    val_main_v0 (F := Ideal) x0 j = past x0 b t d s := by
  unfold val_main_v0 past
  by_cases h : s ≤ t.val
  · rw [if_pos h]
    exact pad_apply_of_inside ![0, 3, 0] ![0, 0, 0] ![0, 0, 0] x0 (val_main_call0_v0 (F := Ideal))
      pads_S4x4096x4096_S4x4099x4096_000_300_000 h_S_ j
      (ix3 b ⟨t.val - s, Nat.lt_of_le_of_lt (Nat.sub_le _ _) t.isLt⟩ d) (fun a => match a with
        | ⟨0, _⟩ => by show (j 0).val = 0 + b.val * (0 + 1); omega
        | ⟨1, _⟩ => by show (j 1).val = 3 + (t.val - s) * (0 + 1); omega
        | ⟨2, _⟩ => by show (j 2).val = 0 + d.val * (0 + 1); omega)
  · rw [if_neg h]
    refine (pad_apply_of_not_inside ![0, 3, 0] ![0, 0, 0] ![0, 0, 0] x0 (val_main_call0_v0 (F := Ideal))
      pads_S4x4096x4096_S4x4099x4096_000_300_000 h_S_ j (1 : Fin 3) ?_).trans (pad_value _)
    show ¬(3 ≤ (j 1).val ∧ ((j 1).val - 3) % (0 + 1) = 0 ∧ ((j 1).val - 3) / (0 + 1) < 4096)
    omega

/-- Window `k` of the padded input at time `t` is the input `3 - k` steps back. -/
theorem window0 (x0 : (⟨S4x4096x4096, .f32⟩ : BufTy).Contents (Elt Ideal)) (b : Fin 4) (t d : Fin 4096) :
    val_main_v7 (F := Ideal) x0 (ix3 b t d) = past x0 b t d 3 := by
  rw [val_main_v7_apply]
  exact padded_apply x0 b t d 0 3 rfl _ rfl (Nat.zero_add _).symm rfl
theorem window1 (x0 : (⟨S4x4096x4096, .f32⟩ : BufTy).Contents (Elt Ideal)) (b : Fin 4) (t d : Fin 4096) :
    val_main_v14 (F := Ideal) x0 (ix3 b t d) = past x0 b t d 2 := by
  rw [val_main_v14_apply]
  exact padded_apply x0 b t d 1 2 rfl _ rfl rfl rfl
theorem window2 (x0 : (⟨S4x4096x4096, .f32⟩ : BufTy).Contents (Elt Ideal)) (b : Fin 4) (t d : Fin 4096) :
    val_main_v21 (F := Ideal) x0 (ix3 b t d) = past x0 b t d 1 := by
  rw [val_main_v21_apply]
  exact padded_apply x0 b t d 2 1 rfl _ rfl rfl rfl
theorem window3 (x0 : (⟨S4x4096x4096, .f32⟩ : BufTy).Contents (Elt Ideal)) (b : Fin 4) (t d : Fin 4096) :
    val_main_v28 (F := Ideal) x0 (ix3 b t d) = x0 (ix3 b t d) := by
  rw [val_main_v28_apply]
  refine (padded_apply x0 b t d 3 0 rfl _ rfl rfl rfl).trans ?_
  unfold past
  rw [if_pos (Nat.zero_le _)]
  rfl

/-- Filter row `k`, laid along every batch row and time, read at an index: the filter's entry `(k, d)`. -/
theorem tap0 (x1 : (⟨S4x4096, .f32⟩ : BufTy).Contents (Elt Ideal)) (b : Fin 4) (t d : Fin 4096) :
    val_main_v11 (F := Ideal) x1 (ix3 b t d) = x1 (ix2 (0 : Fin 4) d) := by
  rw [val_main_v11_apply, val_main_v10_apply, val_main_v9_apply, val_main_v8_apply]
  exact congrArg x1 (funext fun a => Fin.ext (by
    match a with
    | ⟨0, _⟩ => rfl
    | ⟨1, _⟩ => show d.val % 4096 = d.val; exact Nat.mod_eq_of_lt d.isLt))
theorem tap1 (x1 : (⟨S4x4096, .f32⟩ : BufTy).Contents (Elt Ideal)) (b : Fin 4) (t d : Fin 4096) :
    val_main_v18 (F := Ideal) x1 (ix3 b t d) = x1 (ix2 (1 : Fin 4) d) := by
  rw [val_main_v18_apply, val_main_v17_apply, val_main_v16_apply, val_main_v15_apply]
  exact congrArg x1 (funext fun a => Fin.ext (by
    match a with
    | ⟨0, _⟩ => rfl
    | ⟨1, _⟩ => show d.val % 4096 = d.val; exact Nat.mod_eq_of_lt d.isLt))
theorem tap2 (x1 : (⟨S4x4096, .f32⟩ : BufTy).Contents (Elt Ideal)) (b : Fin 4) (t d : Fin 4096) :
    val_main_v25 (F := Ideal) x1 (ix3 b t d) = x1 (ix2 (2 : Fin 4) d) := by
  rw [val_main_v25_apply, val_main_v24_apply, val_main_v23_apply, val_main_v22_apply]
  exact congrArg x1 (funext fun a => Fin.ext (by
    match a with
    | ⟨0, _⟩ => rfl
    | ⟨1, _⟩ => show d.val % 4096 = d.val; exact Nat.mod_eq_of_lt d.isLt))
theorem tap3 (x1 : (⟨S4x4096, .f32⟩ : BufTy).Contents (Elt Ideal)) (b : Fin 4) (t d : Fin 4096) :
    val_main_v32 (F := Ideal) x1 (ix3 b t d) = x1 (ix2 (3 : Fin 4) d) := by
  rw [val_main_v32_apply, val_main_v31_apply, val_main_v30_apply, val_main_v29_apply]
  exact congrArg x1 (funext fun a => Fin.ext (by
    match a with
    | ⟨0, _⟩ => rfl
    | ⟨1, _⟩ => show d.val % 4096 = d.val; exact Nat.mod_eq_of_lt d.isLt))

/-- The bias laid along every batch row and time, read at an index: the bias at the channel. -/
theorem bias_at (x2 : (⟨S4096, .f32⟩ : BufTy).Contents (Elt Ideal)) (b : Fin 4) (t d : Fin 4096) :
    val_main_v36 (F := Ideal) x2 (ix3 b t d) = x2 (ix1 d) := by
  rw [val_main_v36_apply, val_main_v35_apply]
  exact congrArg x2 (funext fun a => Fin.ext (by
    match a with
    | ⟨0, _⟩ => rfl))

/-- The zero array the sum starts from. -/
theorem zero_at (i : S4x4096x4096.Idx) : val_main_v6 (F := Ideal) i = 0 := by
  rw [val_main_v6_apply, val_main_cst_0_apply]
  exact Ideal.ofBits_zero_f32

/-- THE PLAIN PROGRAM'S RESULT IS THE CONVOLUTION: from zero, the four windows times the four filter rows in order, then
    the bias; re-associated into the specification's order (`taps_then_bias`). -/
theorem result_eq (x0 : (⟨S4x4096x4096, .f32⟩ : BufTy).Contents (Elt Ideal)) (x1 : (⟨S4x4096, .f32⟩ : BufTy).Contents (Elt Ideal))
    (x2 : (⟨S4096, .f32⟩ : BufTy).Contents (Elt Ideal)) :
    val_main_v37 (F := Ideal) x0 x1 x2 = convArr x0 x1 x2 := by
  funext i
  obtain ⟨b, t, d, rfl⟩ : ∃ (b : Fin 4) (t d : Fin 4096), i = ix3 b t d := ⟨i 0, i 1, i 2, eq_ix3 i⟩
  rw [val_main_v37_apply, val_main_v34_apply, val_main_v27_apply, val_main_v20_apply, val_main_v13_apply,
    val_main_v33_apply, val_main_v26_apply, val_main_v19_apply, val_main_v12_apply,
    window0, window1, window2, window3, tap0, tap1, tap2, tap3, bias_at, zero_at]
  exact taps_then_bias x0 x1 x2 b t d

end Cert.ReferenceIdeal.RefValue

end
-- ==== Proof.lean ====
/-
  A causal depthwise temporal convolution, tiled over time, equals the plain one over the extended reals.

      out[b, t, d] = Σ_{k=0..3} x[b, t - (3 - k), d] · w[k, d] + bias[d],      x[b, s, d] = 0 for s < 0.

  The tiled program runs over 4 batch rows × 16 time tiles of 256 rows. It keeps a buffer of 8 history rows followed by
  the current tile; the history rows are zero at the first tile of a batch row and otherwise the last eight rows of
  the previous tile, so the three shifted windows it reads are the input 3, 2, 1 steps back in time, across tile
  boundaries and with zeros before time 0 (`Proof/BodyValue.lean`, `Proof/KernelValue.lean`). It accumulates
  `x·w[3] + bias` first and then taps 0, 1, 2. The plain program pads the input with three zero rows, and accumulates
  taps 0 to 3 from zero and the bias last (`Proof/RefValue.lean`). The two sums have the same terms; addition of
  extended reals is commutative and associative with unit 0, so they are equal (`Proof/Spec.lean`), at infinite entries
  too: the precondition that the inputs are finite is not used.

  The three frames: the two tiled programs' frames are the generated frame certificates; the plain program's is its
  run with the result dropped. Nothing was rewritten between the printed and the idealized tiled program, so
  `preserves` is `True`.
-/
import proofs.«182084_j71305047048638_2_alg».proof.Defs
import proofs.«182084_j71305047048638_2_alg».proof.Proof.Gen.Kernel
import proofs.«182084_j71305047048638_2_alg».proof.Proof.Gen.Kernel.Skeleton
import proofs.«182084_j71305047048638_2_alg».proof.Proof.Gen.Kernel.Launch
import proofs.«182084_j71305047048638_2_alg».proof.Proof.Gen.Kernel.Points
import proofs.«182084_j71305047048638_2_alg».proof.Proof.Gen.Kernel.Frame
import proofs.«182084_j71305047048638_2_alg».proof.Proof.Gen.KernelIdeal
import proofs.«182084_j71305047048638_2_alg».proof.Proof.Gen.KernelIdeal.Skeleton
import proofs.«182084_j71305047048638_2_alg».proof.Proof.Gen.KernelIdeal.Launch
import proofs.«182084_j71305047048638_2_alg».proof.Proof.Gen.KernelIdeal.Points
import proofs.«182084_j71305047048638_2_alg».proof.Proof.Gen.KernelIdeal.Frame
import proofs.«182084_j71305047048638_2_alg».proof.Proof.Gen.ReferenceIdeal
import proofs.«182084_j71305047048638_2_alg».proof.Proof.Gen.KernelIdeal.Value
import proofs.«182084_j71305047048638_2_alg».proof.Proof.Gen.ReferenceIdeal.Run
import proofs.«182084_j71305047048638_2_alg».proof.Proof.Gen.ReferenceIdeal.Read
import proofs.«182084_j71305047048638_2_alg».proof.Proof.Gen.Pre_finite_inputs
import proofs.«182084_j71305047048638_2_alg».proof.Proof.KernelValue
import proofs.«182084_j71305047048638_2_alg».proof.Proof.RefValue
import Idealize.ShloMosaic.Adequacy
import Idealize.ShloMosaic.Init

noncomputable section

namespace Cert.Proof

open Idealize.ShloMosaic Idealize.SL.Sem

/-- The printed tiled program runs and leaves its arguments unchanged. -/
theorem frame_k : Cert.frame_Kernel := fun m ρ _ => Cert.Kernel.Gen.frame m ρ

/-- So does the tiled program read over the extended reals. -/
theorem frame_ki : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Both programs end with the convolution of the (agreeing) arguments in their result arrays. -/
theorem algebraic : Cert.algebraic_KernelIdeal_ReferenceIdeal := by
  intro m ρ m' ρ' _ hagree
  refine ⟨fun c => Cert.KernelIdeal.ConvValue.result m c, Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
